-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : IVec S100000 1) (main_arg2 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S100000 : Shape := ⟨1, ![100000]⟩
abbrev S128x128 : Shape := ⟨2, ![128, 128]⟩
abbrev S_ : Shape := ⟨0, ![]⟩
abbrev S50x1x2000 : Shape := ⟨3, ![50, 1, 2000]⟩
abbrev S1x128 : Shape := ⟨2, ![1, 128]⟩
abbrev S2000x128 : Shape := ⟨2, ![2000, 128]⟩
abbrev S1x1x2000 : Shape := ⟨3, ![1, 1, 2000]⟩
abbrev S1x2000 : Shape := ⟨2, ![1, 2000]⟩

abbrev nBuf : Space → Nat
  | .hbm => 16
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S100000, .i1⟩
  | .hbm, ⟨2, _⟩ => ⟨S128x128, .f32⟩
  | .hbm, ⟨3, _⟩ => ⟨S128x128, .i32⟩
  | .hbm, ⟨4, _⟩ => ⟨S128x128, .i32⟩
  | .hbm, ⟨5, _⟩ => ⟨S_, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .f32⟩
  | .hbm, ⟨10, _⟩ => ⟨S128x128, .f32⟩
  | .hbm, ⟨11, _⟩ => ⟨S100000, .f32⟩
  | .hbm, ⟨12, _⟩ => ⟨S50x1x2000, .f32⟩
  | .hbm, ⟨13, _⟩ => ⟨S_, .f32⟩
  | .hbm, ⟨14, _⟩ => ⟨S1x128, .f32⟩
  | .hbm, ⟨15, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S1x1x2000, .f32⟩
  | .local _ .vmem, ⟨3, _⟩ => ⟨S1x1x2000, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S128x128 : S_.BroadcastsInDim S128x128 (![] : Fin 0 → Fin S128x128.rank)
  shapeCasts_S100000_S50x1x2000 : S100000.ShapeCasts S50x1x2000
  bcast_S_S1x128 : S_.BroadcastsInDim S1x128 (![] : Fin 0 → Fin S1x128.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1x2000_S1x1x2000_0_0_0 : ∀ a, (![0, 0, 0] : Fin 3 → Nat) a + S1x1x2000.size a ≤ S1x1x2000.size a
  h_S1x1x2000 : 0 < S1x1x2000.numel
  shapeCasts_S1x1x2000_S1x2000 : S1x1x2000.ShapeCasts S1x2000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  dot_S2000x128_S128x128_S2000x128_1_0_0_1_n_n_wf : DotDims.WF S2000x128 S128x128 S2000x128 [1] [0] [0] [1] [] []
  dot_S1x2000_S1x128_S2000x128_0_0_1_1_n_n_wf : DotDims.WF S1x2000 S1x128 S2000x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2000.size a ≤ S50x1x2000.size a
  hwx0_1 : ∀ i : grid0.Coords, EltTy.bits .f32 = 32 ∨ (Rect.block (s := S50x1x2000) S1x1x2000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1x2000_S1x128_S2000x128_0_0_1_1_n_n : DotDims S1x2000 S1x128 S2000x128 where
  lhsContracting := [0]
  rhsContracting := [0]
  lhsNonContracting := [1]
  rhsNonContracting := [1]
  lhsBatch := []
  rhsBatch := []
  wf := dot_S1x2000_S1x128_S2000x128_0_0_1_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1x2000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000 : Shape := ⟨1, ![100000]⟩
abbrev S128x128 : Shape := ⟨2, ![128, 128]⟩
abbrev S100000x1 : Shape := ⟨2, ![100000, 1]⟩

abbrev nBuf : Space → Nat
  | .hbm => 7
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i1⟩
  | .hbm, ⟨2, _⟩ => ⟨S128x128, .f32⟩
  | .hbm, ⟨3, _⟩ => ⟨S100000x128, .f32⟩
  | .hbm, ⟨4, _⟩ => ⟨S100000x1, .i1⟩
  | .hbm, ⟨5, _⟩ => ⟨S100000x128, .i1⟩
  | .hbm, ⟨6, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Payload.lean ====
/-
  What the kernel body stores, read at one entry.

  At a grid point the body holds a block X of 2000 rows of x, the whole matrix V, the block's 2000 flags as numbers laid
  out [1, 1, 2000], and a row of ones [1, 128]. It stores

      X + (Fᵀ · ones) ∘ (X · V),

  where F is the flags recast as a [1, 2000] matrix, Fᵀ · ones contracts the axis of extent one (so its entry (p, q) is
  the one-term sum F (u, p) · ones (u, q), flag p spread along row p), X · V contracts the axis of extent 128, and ∘
  is the entrywise product. Both products start from a zero accumulator, so each is the plain sum of its products.
  Entry (p, q) of what is stored is therefore

      X (p, q) + (Σ_{u < 1} flags (u, 0, p) · ones (u, q)) · Σ_{k < 128} X (p, k) · V (k, q).
-/
import proofs.«168212_g66400194396169_cont_9to1_m_1193_3_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## A block of rows times the matrix: which operand entries an output entry and a contraction index name -/

theorem rows_lhs_0 (i : S2000x128.Idx) (κ : dot_S2000x128_S128x128_S2000x128_1_0_0_1_n_n.contr.Idx) : (dot_S2000x128_S128x128_S2000x128_1_0_0_1_n_n.lhsIdx i κ 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem rows_lhs_1 (i : S2000x128.Idx) (κ : dot_S2000x128_S128x128_S2000x128_1_0_0_1_n_n.contr.Idx) : (dot_S2000x128_S128x128_S2000x128_1_0_0_1_n_n.lhsIdx i κ 1).val = (κ ⟨0, by decide⟩).val :=
  dot_S2000x128_S128x128_S2000x128_1_0_0_1_n_n.lhsIdx_val_of_single rfl i κ
theorem rows_rhs_0 (i : S2000x128.Idx) (κ : dot_S2000x128_S128x128_S2000x128_1_0_0_1_n_n.contr.Idx) : (dot_S2000x128_S128x128_S2000x128_1_0_0_1_n_n.rhsIdx i κ 0).val = (κ ⟨0, by decide⟩).val :=
  dot_S2000x128_S128x128_S2000x128_1_0_0_1_n_n.rhsIdx_val_of_single rfl i κ
theorem rows_rhs_1 (i : S2000x128.Idx) (κ : dot_S2000x128_S128x128_S2000x128_1_0_0_1_n_n.contr.Idx) : (dot_S2000x128_S128x128_S2000x128_1_0_0_1_n_n.rhsIdx i κ 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry (p, q) of a block of rows times the matrix, from a zero accumulator: the sum over k of row p's entry k times
    the matrix's entry (k, q). -/
theorem rows_times_matrix (X : FVec Ideal S2000x128 .f32) (V : FVec Ideal S128x128 .f32) (p : Fin 2000) (q : Fin 128) :
    matmul dot_S2000x128_S128x128_S2000x128_1_0_0_1_n_n none X V (constant (F := Ideal) S2000x128 .f32 0x00000000#32) (ix2 p q)
      = ∑ k : Fin 128, X (ix2 p k) * V (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact rows_lhs_0 _ _
    | ⟨1, _⟩ => exact (rows_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rows_rhs_0 _ _).trans hk
    | ⟨1, _⟩ => exact rows_rhs_1 _ _)
  rw [el, er]

/-! ## A column times a row, contracting an axis of extent one -/

theorem col_lhs_0 (i : S2000x128.Idx) (κ : dot_S1x2000_S1x128_S2000x128_0_0_1_1_n_n.contr.Idx) : (dot_S1x2000_S1x128_S2000x128_0_0_1_1_n_n.lhsIdx i κ 0).val = (κ ⟨0, by decide⟩).val :=
  dot_S1x2000_S1x128_S2000x128_0_0_1_1_n_n.lhsIdx_val_of_single rfl i κ
theorem col_lhs_1 (i : S2000x128.Idx) (κ : dot_S1x2000_S1x128_S2000x128_0_0_1_1_n_n.contr.Idx) : (dot_S1x2000_S1x128_S2000x128_0_0_1_1_n_n.lhsIdx i κ 1).val = (i 0).val := by
  unfold DotDims.lhsIdx
  rw [dif_neg (show ¬(1 : Fin S1x2000.rank) ∈ dot_S1x2000_S1x128_S2000x128_0_0_1_1_n_n.lhsBatch by decide),
    dif_pos (show (1 : Fin S1x2000.rank) ∈ dot_S1x2000_S1x128_S2000x128_0_0_1_1_n_n.lhsNonContracting by decide)]
  rfl
theorem col_rhs_0 (i : S2000x128.Idx) (κ : dot_S1x2000_S1x128_S2000x128_0_0_1_1_n_n.contr.Idx) : (dot_S1x2000_S1x128_S2000x128_0_0_1_1_n_n.rhsIdx i κ 0).val = (κ ⟨0, by decide⟩).val :=
  dot_S1x2000_S1x128_S2000x128_0_0_1_1_n_n.rhsIdx_val_of_single rfl i κ
theorem col_rhs_1 (i : S2000x128.Idx) (κ : dot_S1x2000_S1x128_S2000x128_0_0_1_1_n_n.contr.Idx) : (dot_S1x2000_S1x128_S2000x128_0_0_1_1_n_n.rhsIdx i κ 1).val = (i 1).val := by
  unfold DotDims.rhsIdx
  rw [dif_neg (show ¬(1 : Fin S1x128.rank) ∈ dot_S1x2000_S1x128_S2000x128_0_0_1_1_n_n.rhsBatch by decide),
    dif_pos (show (1 : Fin S1x128.rank) ∈ dot_S1x2000_S1x128_S2000x128_0_0_1_1_n_n.rhsNonContracting by decide)]
  rfl

/-- Entry (p, q) of a [1, 2000] matrix's transpose times a [1, 128] matrix, from a zero accumulator: the one-term sum
    of the first's entry (u, p) times the second's entry (u, q). -/
theorem column_times_row (Fl : FVec Ideal S1x2000 .f32) (O : FVec Ideal S1x128 .f32) (p : Fin 2000) (q : Fin 128) :
    matmul dot_S1x2000_S1x128_S2000x128_0_0_1_1_n_n none Fl O (constant (F := Ideal) S2000x128 .f32 0x00000000#32) (ix2 p q)
      = ∑ u : Fin 1, Fl (ix2 u p) * O (ix2 u q) := by
  simp only [matmul]
  rw [Ideal.matmul_constant_zero_apply, ← Equiv.sum_comp (contrEquiv1 dot_S1x2000_S1x128_S2000x128_0_0_1_1_n_n 1 rfl rfl).symm]
  refine Finset.sum_congr rfl fun u _ => ?_
  have hu := contrEquiv1_symm_val dot_S1x2000_S1x128_S2000x128_0_0_1_1_n_n 1 rfl rfl u
  have el : dot_S1x2000_S1x128_S2000x128_0_0_1_1_n_n.lhsIdx (ix2 p q) ((contrEquiv1 dot_S1x2000_S1x128_S2000x128_0_0_1_1_n_n 1 rfl rfl).symm u) = ix2 u p := funext fun a => Fin.ext (by
    match a with
    | ⟨0, _⟩ => exact (col_lhs_0 _ _).trans hu
    | ⟨1, _⟩ => exact col_lhs_1 _ _)
  have er : dot_S1x2000_S1x128_S2000x128_0_0_1_1_n_n.rhsIdx (ix2 p q) ((contrEquiv1 dot_S1x2000_S1x128_S2000x128_0_0_1_1_n_n 1 rfl rfl).symm u) = ix2 u q := funext fun a => Fin.ext (by
    match a with
    | ⟨0, _⟩ => exact (col_rhs_0 _ _).trans hu
    | ⟨1, _⟩ => exact col_rhs_1 _ _)
  rw [el, er]

/-! ## The flags recast -/

/-- The flags laid out [1, 1, 2000] and recast to [1, 2000]: entry (u, p) is entry (u, 0, p), the two having the same
    place in row-major order. -/
theorem flags_recast (Fl : FVec Ideal S1x1x2000 .f32) (h : S1x1x2000.ShapeCasts S1x2000) (u : Fin 1) (p : Fin 2000) :
    shapeCast S1x2000 Fl h (ix2 u p) = Fl (ix3 u (0 : Fin 1) p) := by
  refine shapeCast_apply Fl h (ix2 u p) (ix3 u (0 : Fin 1) p) ?_
  rw [Shape.rowMajor_val_three, Shape.rowMajor_val_two]
  show (u.val * 1 + 0) * 2000 + p.val = u.val * 2000 + p.val
  omega

/-! ## The stored value at an entry -/

/-- Entry (p, q) of what the body stores. -/
theorem stored_entry (X : FVec Ideal S2000x128 .f32) (V : FVec Ideal S128x128 .f32) (Fl : FVec Ideal S1x1x2000 .f32)
    (O : FVec Ideal S1x128 .f32) (p : Fin 2000) (q : Fin 128) :
    k0_pay1 (F := Ideal) X V Fl O (ix2 p q)
      = X (ix2 p q) + (∑ u : Fin 1, Fl (ix3 u (0 : Fin 1) p) * O (ix2 u q)) * (∑ k : Fin 128, X (ix2 p k) * V (ix2 k q)) := by
  unfold k0_pay1
  rw [addf_apply, mulf_apply, column_times_row, rows_times_matrix]
  simp only [shapeCast_self, flags_recast]

end Cert.KernelIdeal.Payload

end
-- ==== Proof.Spec.lean ====
/-
  The layer's result as one function of its three arguments, in two arrangements.

  The arguments are x, 100000 rows of 128 numbers; a flag per row; and a 128 × 128 matrix W. Numbers are extended
  reals. The result has x's shape.

  * REPLACED ROWS. Row r of the result is row r of x times W where flag r is set, and row r of x where it is not:
    entry (r, q) is Σ_k x (r, k) · W (k, q), or x (r, q).
  * FUSED. One expression for both cases: entry (r, q) is
        x (r, q) + (Σ_{u < 1} μ r · 1) · Σ_k x (r, k) · (W (k, q) − δ k q),
    where μ r is flag r read as the number 0 or 1, the one-term sum is a product of a column holding the flags with a
    row of ones (which spreads flag r along row r), and δ is the identity matrix, so that W − δ is the change the
    matrix makes to a row.

  Both are stated entry by entry over coordinates r < 100000, q < 128, k < 128, and then as arrays.
-/
import Idealize.ShloMosaic.PureOps.Ideal
import Idealize.ShloMosaic.Lib.ValueIdx

noncomputable section

open scoped BigOperators

namespace Cert.Spec

open Idealize.ShloMosaic Idealize.ShloMosaic.ValueIdx

/-- Entry (r, q) of the replaced rows. -/
def replacedEntry (x : (⟨2, ![100000, 128]⟩ : Shape).Idx → EReal) (b : (⟨1, ![100000]⟩ : Shape).Idx → BitVec 1)
    (W : (⟨2, ![128, 128]⟩ : Shape).Idx → EReal) (r : Fin 100000) (q : Fin 128) : EReal :=
  Scalar.select (b (ix1 r)) (∑ k : Fin 128, x (ix2 r k) * W (ix2 k q)) (x (ix2 r q))

/-- The replaced rows, as an array. -/
def replacedRows (x : (⟨2, ![100000, 128]⟩ : Shape).Idx → EReal) (b : (⟨1, ![100000]⟩ : Shape).Idx → BitVec 1)
    (W : (⟨2, ![128, 128]⟩ : Shape).Idx → EReal) : (⟨2, ![100000, 128]⟩ : Shape).Idx → EReal :=
  fun i => replacedEntry x b W (i 0) (i 1)

/-- Flag r as a number: 0 or 1. -/
def flagNum (b : (⟨1, ![100000]⟩ : Shape).Idx → BitVec 1) (r : Fin 100000) : EReal := (((b (ix1 r)).toNat : ℝ) : EReal)

/-- Entry (k, q) of the identity matrix, as a real number. -/
def identEntry (k q : Fin 128) : ℝ := if k = q then 1 else 0

/-- Entry (r, q) of the fused expression. -/
def fusedEntry (x : (⟨2, ![100000, 128]⟩ : Shape).Idx → EReal) (b : (⟨1, ![100000]⟩ : Shape).Idx → BitVec 1)
    (W : (⟨2, ![128, 128]⟩ : Shape).Idx → EReal) (r : Fin 100000) (q : Fin 128) : EReal :=
  x (ix2 r q) + (∑ _u : Fin 1, flagNum b r * 1) * (∑ k : Fin 128, x (ix2 r k) * (W (ix2 k q) - ((identEntry k q : ℝ) : EReal)))

/-- The fused expression, as an array. -/
def fusedRows (x : (⟨2, ![100000, 128]⟩ : Shape).Idx → EReal) (b : (⟨1, ![100000]⟩ : Shape).Idx → BitVec 1)
    (W : (⟨2, ![128, 128]⟩ : Shape).Idx → EReal) : (⟨2, ![100000, 128]⟩ : Shape).Idx → EReal :=
  fun i => fusedEntry x b W (i 0) (i 1)

end Cert.Spec

end
-- ==== Proof.HostGlue.lean ====
/-
  What the region finds in the three arrays that are computed before it.

  * The ONES: a [1, 128] array filled with the constant whose bit pattern denotes the number 1.
  * The FLAGS: each flag turned into the number 0 or 1 (read as an unsigned one-bit integer) and the 100000 numbers laid
    out [50, 1, 2000] in the same row-major order, so that entry (a, 0, p) is flag 2000·a + p.
  * The MATRIX: W minus the identity, the identity being built as "row number + 0 equals column number" turned into 0 or
    1. Row and column numbers are below 128, far below 2³², so equality of the 32-bit words is equality of the numbers.
-/
import proofs.«168212_g66400194396169_cont_9to1_m_1193_3_alg».proof.Proof.Gen.KernelIdeal.Frame
import proofs.«168212_g66400194396169_cont_9to1_m_1193_3_alg».proof.Proof.Spec
import Idealize.ShloMosaic.Lib.StableHlo.Run
import Idealize.ShloMosaic.PureOps.Ideal
import Idealize.ShloMosaic.Lib.ValueIdx
import Idealize.ShloMosaic.Lib.Pipeline.Value

noncomputable section

namespace Cert.KernelIdeal.HostGlue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The ones -/

/-- The bit pattern 0x3F800000 denotes the number 1. -/
theorem ofBits_one : Ideal.ofBits .f32 0x3F800000#32 = 1 := by
  simp [Ideal.ofBits, Ideal.ieee, -EReal.coe_mul]; norm_num

theorem ones_array (c : Dev nD) : (V (F := Ideal) m c main_v9 : S1x128.Idx → EReal)
    = broadcastInDim S1x128 ![] bcast_S_S1x128 (constant (F := Ideal) S_ .f32 0x3F800000#32) := by
  dsimp only [V, hostOps0]
  after_results <;> rfl

/-- Every entry of the ones is 1. -/
theorem ones_entry (c : Dev nD) (u : Fin 1) (q : Fin 128) :
    (V (F := Ideal) m c main_v9 : S1x128.Idx → EReal) (ix2 u q) = (1 : EReal) := by
  rw [ones_array]
  exact ofBits_one

/-! ## The flags -/

theorem flags_array (c : Dev nD) : (V (F := Ideal) m c main_v8 : S50x1x2000.Idx → EReal)
    = shapeCast S50x1x2000 (uitofp (F := Ideal) .f32 (m ((c : Thread nD τ).loc main_arg1))) shapeCasts_S100000_S50x1x2000 := by
  dsimp only [V, hostOps0]
  after_results <;> rfl

/-- Entry (a, 0, p) of the laid-out flags is flag 2000·a + p as a number. -/
theorem flags_entry (c : Dev nD) (a : Fin 50) (p : Fin 2000) (r : Fin 100000) (hr : r.val = a.val * 2000 + p.val) :
    (V (F := Ideal) m c main_v8 : S50x1x2000.Idx → EReal) (ix3 a (0 : Fin 1) p)
      = Cert.Spec.flagNum (m ((c : Thread nD τ).loc main_arg1)) r := by
  rw [flags_array]
  refine (shapeCast_apply _ shapeCasts_S100000_S50x1x2000 (ix3 a (0 : Fin 1) p) (ix1 r) ?_).trans rfl
  rw [Shape.rowMajor_val_one, Shape.rowMajor_val_three]
  show r.val = (a.val * 1 + 0) * 2000 + p.val
  omega

/-! ## The matrix -/

/-- "Row number + 0 equals column number", as 32-bit words, read as 0 or 1: the identity matrix's entry. -/
theorem diag_bit (k q : Fin 128) :
    (((IntOp.cmpi .eq (IntOp.addi (BitVec.ofNat 32 k.val) 0#32) (BitVec.ofNat 32 q.val)).toNat : ℝ))
      = Cert.Spec.identEntry k q := by
  unfold Cert.Spec.identEntry IntOp.cmpi IntOp.addi
  by_cases h : k = q
  · subst h
    simp
  · have hk : k.val % 2 ^ 32 = k.val := Nat.mod_eq_of_lt (lt_of_lt_of_le k.isLt (by norm_num))
    have hq : q.val % 2 ^ 32 = q.val := Nat.mod_eq_of_lt (lt_of_lt_of_le q.isLt (by norm_num))
    have hne : ¬ BitVec.ofNat 32 k.val = BitVec.ofNat 32 q.val := by
      intro e
      apply h
      apply Fin.ext
      have e' := congrArg BitVec.toNat e
      simp only [BitVec.toNat_ofNat] at e'
      rw [hk, hq] at e'
      exact e'
    simp [h, hne]

theorem matrix_array (c : Dev nD) : (V (F := Ideal) m c main_v6 : S128x128.Idx → EReal)
    = subf (m ((c : Thread nD τ).loc main_arg2))
        (uitofp (F := Ideal) .f32 (cmpi .eq (addi (iotaInDim S128x128 32 0)
          (broadcastInDim S128x128 ![] bcast_S_S128x128 (constantI S_ 32 0#32))) (iotaInDim S128x128 32 1))) := by
  dsimp only [V, hostOps0]
  after_results <;> rfl

/-- Entry (k, q) of the matrix the region finds is W's entry minus the identity's (W named, with the equation that
    says which array it is). -/
theorem matrix_entry (c : Dev nD) (W : S128x128.Idx → EReal) (hW : W = m ((c : Thread nD τ).loc main_arg2)) (k q : Fin 128) :
    (V (F := Ideal) m c main_v6 : S128x128.Idx → EReal) (ix2 k q)
      = W (ix2 k q) - ((Cert.Spec.identEntry k q : ℝ) : EReal) := by
  subst hW
  rw [matrix_array, subf_apply]
  show _ - (((IntOp.cmpi .eq (IntOp.addi (BitVec.ofNat 32 k.val) 0#32) (BitVec.ofNat 32 q.val)).toNat : ℝ) : EReal) = _
  rw [diag_bit]

end Cert.KernelIdeal.HostGlue

end
-- ==== Proof.Blocks.lean ====
/-
  From what each grid point writes back to the whole result array.

  The grid has 50 points. At point t the output's block is rows 2000·t … 2000·t + 1999 of the result, all 128 columns;
  the x block is the same rows of x; the flags' block is slab t of the flags laid out [50, 1, 2000]; the matrix and the
  ones are fetched whole. So entry (p, q) of the block written at point t is entry (r, q), r = 2000·t + p, of ONE function
  of the four arrays the region finds:

      A0 (r, q) + (Σ_{u < 1} A1 (r / 2000, 0, r mod 2000) · A3 (u, q)) · Σ_k A0 (r, k) · A2 (k, q).

  Every row r lies in the block of point r / 2000, so the blocks cover the result, and the result array after the run is
  that function. With the three computed arrays read back (the flags as numbers, the ones as 1, the matrix as W minus
  the identity) it is the fused expression of x, the flags and W.
-/
import proofs.«168212_g66400194396169_cont_9to1_m_1193_3_alg».proof.Proof.Gen.KernelIdeal.Value
import proofs.«168212_g66400194396169_cont_9to1_m_1193_3_alg».proof.Proof.Payload
import proofs.«168212_g66400194396169_cont_9to1_m_1193_3_alg».proof.Proof.HostGlue
import proofs.«168212_g66400194396169_cont_9to1_m_1193_3_alg».proof.Proof.Spec
import Idealize.ShloMosaic.Lib.Pipeline.Value

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-! ## The function of the four arrays -/

/-- The block a row lies in, and its place inside the block. -/
def blockOf (r : Fin 100000) : Fin 50 := ⟨r.val / 2000, by have := r.isLt; omega⟩
def rowIn (r : Fin 100000) : Fin 2000 := ⟨r.val % 2000, Nat.mod_lt _ (by norm_num)⟩

/-- Entry (r, q) of the result, from the four arrays as the region finds them. -/
def regionEntry (A0 : S100000x128.Idx → EReal) (A1 : S50x1x2000.Idx → EReal) (A2 : S128x128.Idx → EReal)
    (A3 : S1x128.Idx → EReal) (r : Fin 100000) (q : Fin 128) : EReal :=
  A0 (ix2 r q) + (∑ u : Fin 1, A1 (ix3 (blockOf r) (0 : Fin 1) (rowIn r)) * A3 (ix2 u q))
    * (∑ k : Fin 128, A0 (ix2 r k) * A2 (ix2 k q))

/-- The same as an array. -/
def regionRows (A0 : S100000x128.Idx → EReal) (A1 : S50x1x2000.Idx → EReal) (A2 : S128x128.Idx → EReal)
    (A3 : S1x128.Idx → EReal) : S100000x128.Idx → EReal :=
  fun i => regionEntry A0 A1 A2 A3 (i 0) (i 1)

/-! ## Where the windows' blocks sit, decided over the 50 points -/

/-- The x block and the flags' slab move with the output block; the matrix, the ones and every second coordinate stay at
    the origin; the output's block number is at most 49. -/
theorem index_facts : ∀ t : Fin cfg0.N,
    win0_0.index t (0 : Fin 2) = win0_4.index t (0 : Fin 2) ∧ win0_0.index t (1 : Fin 2) = 0
    ∧ win0_1.index t (0 : Fin 3) = win0_4.index t (0 : Fin 2) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 49 :=
  (by decide +kernel : ∀ t : Fin grid0.N, _)

/-- Every block number below 50 is some point's. -/
theorem index_onto : ∀ a : Fin 50, ∃ t : Fin cfg0.N, win0_4.index t (0 : Fin 2) = a.val :=
  (by decide +kernel : ∀ a : Fin 50, ∃ t : Fin grid0.N, win0_4.index t (0 : Fin 2) = a.val)

/-! ## Each input block's entries are entries of its array -/

/-- Row p of the x block at point t is row r of x, r the block number times 2000 plus p. -/
theorem rows_block_entry (c : Dev nD) (t : Fin cfg0.N) (p : Fin 2000) (k : Fin 128) (r : Fin 100000)
    (hr : r.val = win0_4.index t (0 : Fin 2) * 2000 + p.val) :
    (iblk m c 0 t : Vec Ideal S2000x128 .f32) (ix2 p k) = (V m c main_arg0 : S100000x128.Idx → EReal) (ix2 r k) := by
  obtain ⟨e00, e01, -⟩ := index_facts t
  unfold iblk
  rw [View.read_apply]
  have h : ((cfg0.win 0).blk t).view.emb (ix2 p k) = ix2 r k := by
    funext a; apply Fin.ext
    match a with
    | ⟨0, _⟩ => show win0_0.index t (0 : Fin 2) * 2000 + 1 * p.val = r.val; omega
    | ⟨1, _⟩ => show win0_0.index t (1 : Fin 2) * 128 + 1 * k.val = k.val; omega
  show V m c main_arg0 _ = V m c main_arg0 _
  rw [h]

/-- Entry (u, 0, p) of the flags' block at point t is entry (a, 0, p') of the laid-out flags, a the block number and p'
    the same place p. -/
theorem flags_block_entry (c : Dev nD) (t : Fin cfg0.N) (u : Fin 1) (p : Fin 2000) (a : Fin 50) (p' : Fin 2000)
    (ha : a.val = win0_4.index t (0 : Fin 2)) (hp : p'.val = p.val) :
    (iblk m c 1 t : Vec Ideal S1x1x2000 .f32) (ix3 u (0 : Fin 1) p) = (V m c main_v8 : S50x1x2000.Idx → EReal) (ix3 a (0 : Fin 1) p') := by
  obtain ⟨-, -, e10, e11, e12, -⟩ := index_facts t
  unfold iblk
  rw [View.read_apply]
  have h : ((cfg0.win 1).blk t).view.emb (ix3 u (0 : Fin 1) p) = ix3 a (0 : Fin 1) p' := by
    funext d; apply Fin.ext
    match d with
    | ⟨0, _⟩ => show win0_1.index t (0 : Fin 3) * 1 + 1 * u.val = a.val; have := u.isLt; omega
    | ⟨1, _⟩ => show win0_1.index t (1 : Fin 3) * 1 + 1 * 0 = 0; omega
    | ⟨2, _⟩ => show win0_1.index t (2 : Fin 3) * 2000 + 1 * p.val = p'.val; omega
  show V m c main_v8 _ = V m c main_v8 _
  rw [h]

/-- The matrix is fetched whole: its block's entry (k, q) is the array's. -/
theorem matrix_block_entry (c : Dev nD) (t : Fin cfg0.N) (k q : Fin 128) :
    (iblk m c 2 t : Vec Ideal S128x128 .f32) (ix2 k q) = (V m c main_v6 : S128x128.Idx → EReal) (ix2 k q) := by
  obtain ⟨-, -, -, -, -, e20, e21, -⟩ := index_facts t
  unfold iblk
  rw [View.read_apply]
  have h : ((cfg0.win 2).blk t).view.emb (ix2 k q) = ix2 k q := by
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  show V m c main_v6 _ = V m c main_v6 _
  rw [h]

/-- The ones are fetched whole: their block's entry (u, q) is the array's. -/
theorem ones_block_entry (c : Dev nD) (t : Fin cfg0.N) (u : Fin 1) (q : Fin 128) :
    (iblk m c 3 t : Vec Ideal S1x128 .f32) (ix2 u q) = (V m c main_v9 : S1x128.Idx → EReal) (ix2 u q) := by
  obtain ⟨-, -, -, -, -, -, -, e30, e31, -⟩ := index_facts t
  unfold iblk
  rw [View.read_apply]
  have h : ((cfg0.win 3).blk t).view.emb (ix2 u q) = ix2 u q := by
    funext a; apply Fin.ext
    match a with
    | ⟨0, _⟩ => show win0_3.index t (0 : Fin 2) * 1 + 1 * u.val = u.val; omega
    | ⟨1, _⟩ => show win0_3.index t (1 : Fin 2) * 128 + 1 * q.val = q.val; omega
  show V m c main_v9 _ = V m c main_v9 _
  rw [h]

/-! ## What a point writes back is its block of the function -/

theorem flushed_eq (c : Dev nD) (t : Fin cfg0.N) :
    (dats m 0 c).flushed 4 t = ((cfg0.win 4).blk t).view.read (Elt Ideal)
      (regionRows (V m c main_arg0) (V m c main_v8) (V m c main_v6) (V m c main_v9)) := by
  obtain ⟨-, -, -, -, -, -, -, -, -, e41, e4le⟩ := index_facts t
  rw [Value.flushed4]
  unfold out0_4
  rw [View.canon_unit_zero origin2]
  simp only [View.ld_unit_zero (S := S2000x128) origin2, View.ld_unit_zero (S := S128x128) origin2,
    View.ld_unit_zero (S := S1x1x2000) origin3, View.ld_unit_zero (S := S1x128) origin2]
  funext j
  obtain ⟨p, q, rfl⟩ : ∃ (p : Fin 2000) (q : Fin 128), j = ix2 p q := ⟨j 0, j 1, eq_ix2 j⟩
  have hp : p.val < 2000 := p.isLt
  let r : Fin 100000 := ⟨win0_4.index t (0 : Fin 2) * 2000 + p.val, by omega⟩
  have hr : r.val = win0_4.index t (0 : Fin 2) * 2000 + p.val := rfl
  have hemb : ((cfg0.win 4).blk t).view.emb (ix2 p q) = ix2 r q := by
    funext a; apply Fin.ext
    match a with
    | ⟨0, _⟩ => show win0_4.index t (0 : Fin 2) * 2000 + 1 * p.val = r.val; omega
    | ⟨1, _⟩ => show win0_4.index t (1 : Fin 2) * 128 + 1 * q.val = q.val; omega
  show k0_pay1 (F := Ideal) (iblk m c 0 t) (iblk m c 2 t) (iblk m c 1 t) (iblk m c 3 t) (ix2 p q)
    = regionRows (V m c main_arg0) (V m c main_v8) (V m c main_v6) (V m c main_v9) (((cfg0.win 4).blk t).view.emb (ix2 p q))
  rw [hemb]
  show _ = regionEntry (V m c main_arg0) (V m c main_v8) (V m c main_v6) (V m c main_v9) r q
  refine (Cert.KernelIdeal.Payload.stored_entry _ _ _ _ p q).trans ?_
  unfold regionEntry
  have ha : (blockOf r).val = win0_4.index t (0 : Fin 2) := by
    show (win0_4.index t (0 : Fin 2) * 2000 + p.val) / 2000 = _
    omega
  have hp' : (rowIn r).val = p.val := by
    show (win0_4.index t (0 : Fin 2) * 2000 + p.val) % 2000 = _
    omega
  refine congrArg₂ (· + ·) (rows_block_entry m c t p q r hr) (congrArg₂ (· * ·)
    (Finset.sum_congr rfl fun u _ => ?_) (Finset.sum_congr rfl fun k _ => ?_))
  · exact congrArg₂ (· * ·) (flags_block_entry m c t u p (blockOf r) (rowIn r) ha hp') (ones_block_entry m c t u q)
  · exact congrArg₂ (· * ·) (rows_block_entry m c t p k r hr) (matrix_block_entry m c t k q)

/-! ## The blocks cover the result -/

/-- A result index is in point t's block iff each coordinate is in the block's range on its axis. -/
theorem mem_blk (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v10).slice (win0_4.rect t)).set ↔ _
  rw [View.set_slice_whole, Rect.mem_set_unit]
  exact Iff.rfl

/-- Row r of the result is in the block of the point whose block number is r / 2000. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := index_onto ⟨(i 0).val / 2000, by omega⟩
  obtain ⟨-, -, -, -, -, -, -, -, -, e41, -⟩ := index_facts t
  have q0 : win0_4.index t (0 : Fin 2) = (i 0).val / 2000 := ht
  refine ⟨t, flush0_4 t, ?_⟩
  rw [mem_blk]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 128 ≤ (i 1).val ∧ (i 1).val < win0_4.index t (1 : Fin 2) * 128 + 128
    omega

/-! ## The result array after the run -/

/-- The result array after the run is the function of the four arrays the region finds. -/
theorem final_region (c : Dev nD) : (dats m 0 c).arrAt 4 cfg0.N
    = regionRows (V m c main_arg0) (V m c main_v8) (V m c main_v6) (V m c main_v9) :=
  (dats m 0 c).arrAt_eq_of_cover 4 _ (fun t _ => flushed_eq m c t) cover

/-- With the computed arrays read back, that function is the fused expression of x, the flags and W. -/
theorem region_is_fused (c : Dev nD) :
    regionRows (V m c main_arg0) (V m c main_v8) (V m c main_v6) (V m c main_v9)
      = Cert.Spec.fusedRows (m ((c : Thread nD τ).loc main_arg0)) (m ((c : Thread nD τ).loc main_arg1)) (m ((c : Thread nD τ).loc main_arg2)) := by
  funext i
  obtain ⟨r, q, rfl⟩ : ∃ (r : Fin 100000) (q : Fin 128), i = ix2 r q := ⟨i 0, i 1, eq_ix2 i⟩
  show regionEntry (V m c main_arg0) (V m c main_v8) (V m c main_v6) (V m c main_v9) r q
    = Cert.Spec.fusedEntry (m ((c : Thread nD τ).loc main_arg0)) (m ((c : Thread nD τ).loc main_arg1)) (m ((c : Thread nD τ).loc main_arg2)) r q
  unfold regionEntry Cert.Spec.fusedEntry
  rw [V_main_arg0]
  have hr : r.val = (blockOf r).val * 2000 + (rowIn r).val := by
    show r.val = r.val / 2000 * 2000 + r.val % 2000
    omega
  refine congrArg₂ (· + ·) rfl (congrArg₂ (· * ·)
    (Finset.sum_congr rfl fun u _ => ?_) (Finset.sum_congr rfl fun k _ => ?_))
  · exact congrArg₂ (· * ·) (Cert.KernelIdeal.HostGlue.flags_entry m c (blockOf r) (rowIn r) r hr)
      (Cert.KernelIdeal.HostGlue.ones_entry m c u q)
  · exact congrArg₂ (· * ·) rfl (Cert.KernelIdeal.HostGlue.matrix_entry m c _ rfl k q)

/-- The run, read: the result array ends at the fused expression of the arguments, the arguments unchanged. -/
theorem run : θ_run defs (onTc (τ := τ) (main (F := Ideal))) ⟨m, fun _ => 0, ρ⟩ fun r => ∀ c : Dev nD,
      r.2.mem ((c : Thread nD τ).loc main_v10)
        = Cert.Spec.fusedRows (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final_region m c).trans (region_is_fused m c)), (h c).2⟩)
    (Value.run_blocks m ρ)

end Cert.KernelIdeal.Blocks

end
-- ==== Proof.RefRead.lean ====
/-
  The reference computes the replaced rows.

  Its four operations are: the product of x with W over the shared axis of extent 128; the flags laid out as a column;
  that column spread along each row; and a selection, entry by entry, between the product and x by the spread flag.
  Read at an entry (r, q): the spread flag is flag r, the product's entry is Σ_k x (r, k) · W (k, q), and the other
  branch is x (r, q).
-/
import proofs.«168212_g66400194396169_cont_9to1_m_1193_3_alg».proof.Proof.Spec
import proofs.«168212_g66400194396169_cont_9to1_m_1193_3_alg».proof.Proof.Gen.ReferenceIdeal.Read

noncomputable section

open scoped BigOperators

namespace Cert.RefRead

open Cert.ReferenceIdeal Cert.ReferenceIdeal.Read Idealize.ShloMosaic Idealize.ShloMosaic.ValueIdx

/-- The reference's last stage, as a function of the three arguments, is the replaced rows. -/
theorem reference_is_replacedRows (x0 : (⟨S100000x128, .f32⟩ : BufTy).Contents (Elt Ideal))
    (x1 : (⟨S100000, .i1⟩ : BufTy).Contents (Elt Ideal)) (x2 : (⟨S128x128, .f32⟩ : BufTy).Contents (Elt Ideal)) :
    val_main_v2 (F := Ideal) x0 x1 x2 = Cert.Spec.replacedRows x0 x1 x2 := by
  funext i
  obtain ⟨r, q, rfl⟩ : ∃ (r : Fin 100000) (q : Fin 128), i = ix2 r q := ⟨i 0, i 1, eq_ix2 i⟩
  have e1 : idx_main_v1 (idx_main_call0_v0 (ix2 r q)) = ix1 r :=
    funext fun a => Fin.ext (by match a with | ⟨0, _⟩ => rfl)
  have e2 : ∀ k : Fin 128, lidx_main_v0 (ix2 r q) k = ix2 r k := fun k =>
    funext fun a => Fin.ext (by match a with | ⟨0, _⟩ => rfl | ⟨1, _⟩ => rfl)
  have e3 : ∀ k : Fin 128, ridx_main_v0 (ix2 r q) k = ix2 k q := fun k =>
    funext fun a => Fin.ext (by match a with | ⟨0, _⟩ => rfl | ⟨1, _⟩ => rfl)
  rw [val_main_v2_apply, val_main_call0_v0_apply, val_main_v1_apply, val_main_v0_apply]
  simp only [e1, e2, e3]
  rfl

end Cert.RefRead

end
-- ==== Proof.LibCoeSum.lean ====
/-
  Finite sums of real numbers read in the extended reals.

  The extended reals add a top and a bottom element to the real line. On the real numbers inside them, addition and
  multiplication are the real ones, so a finite sum of real numbers, each read as an extended real, is the real sum
  read as an extended real; and a finite sum of products of such numbers (a dot product) is the real dot product read
  as an extended real. These two facts carry a computation on finite entries out of the extended reals into the real
  numbers, where the ring laws hold without side conditions.
-/
import Mathlib.Data.EReal.Inv
import Mathlib.Algebra.BigOperators.Group.Finset.Basic

open scoped BigOperators

namespace Cert.CoeSum

/-- A finite sum of real numbers, each read as an extended real, is the real sum read as an extended real. -/
theorem coe_sum {ι : Type*} (s : Finset ι) (f : ι → ℝ) :
    ∑ k ∈ s, ((f k : ℝ) : EReal) = ((∑ k ∈ s, f k : ℝ) : EReal) := by
  classical
  refine Finset.induction_on s ?_ ?_
  · simp
  · intro a s ha ih
    rw [Finset.sum_insert ha, Finset.sum_insert ha, ih, EReal.coe_add]

/-- A dot product of two real vectors, computed on their entries read as extended reals, is the real dot product
    read as an extended real: each product of two reals is the real product, and then the sum is the real sum. -/
theorem coe_dot {ι : Type*} (s : Finset ι) (x w : ι → ℝ) :
    ∑ k ∈ s, ((x k : ℝ) : EReal) * ((w k : ℝ) : EReal) = ((∑ k ∈ s, x k * w k : ℝ) : EReal) := by
  rw [← coe_sum]
  exact Finset.sum_congr rfl fun k _ => (EReal.coe_mul _ _).symm

end Cert.CoeSum
-- ==== Proof.MaskedRow.lean ====
/-
  One entry of a row that a 0/1 mask either keeps or replaces by the row's product with a matrix.

  Fix a row x (a finite vector of real numbers), the column w of a matrix W that the entry's position q selects, and
  the same column δ of the identity matrix (δ k is 1 at k = q and 0 elsewhere). The entry computed is

      x q + μ · Σ_k x k · (w k − δ k),

  where the mask factor μ arrives as a one-term sum μ₀ · o over a contraction axis of extent one (μ₀ the mask bit as
  a number, o an entry of a row of ones).

  * μ₀ = 1. Since Σ_k x k · δ k = x q, the sum is (Σ_k x k · w k) − x q, and the two copies of x q cancel: the entry
    is Σ_k x k · w k, entry q of the row times W. Splitting the sum and cancelling are laws of the real numbers; on
    the extended reals they fail at the infinities, which is why the row and the column are taken real here.
  * μ₀ = 0. The product 0 · S is 0 for every extended real S, so the entry is x q, and nothing is asked of the sum.
-/
import proofs.«168212_g66400194396169_cont_9to1_m_1193_3_alg».proof.Proof.LibCoeSum
import Mathlib.Algebra.BigOperators.Ring.Finset
import Mathlib.Tactic.Ring

open scoped BigOperators

namespace Cert.MaskedRow

open Cert.CoeSum

/-- Mask bit clear: the entry is kept. No finiteness is needed, zero times any extended real being zero. -/
theorem entry_kept (a S μ₀ o : EReal) (hμ : μ₀ = 0) : a + (∑ _u : Fin 1, μ₀ * o) * S = a := by
  subst hμ
  simp

/-- Mask bit set: the entry is entry q of the row times the matrix. -/
theorem entry_replaced {K : Type*} [Fintype K] [DecidableEq K] (x w δ : K → ℝ) (q : K)
    (hδ : ∀ k, δ k = if k = q then 1 else 0) (μ₀ o : EReal) (hμ : μ₀ = 1) (ho : o = 1) :
    ((x q : ℝ) : EReal)
        + (∑ _u : Fin 1, μ₀ * o) * (∑ k, ((x k : ℝ) : EReal) * (((w k : ℝ) : EReal) - ((δ k : ℝ) : EReal)))
      = ∑ k, ((x k : ℝ) : EReal) * ((w k : ℝ) : EReal) := by
  subst hμ ho
  have h1 : (∑ _u : Fin 1, (1 : EReal) * 1) = 1 := by simp
  have h2 : ∑ k, ((x k : ℝ) : EReal) * (((w k : ℝ) : EReal) - ((δ k : ℝ) : EReal))
      = ((∑ k, x k * (w k - δ k) : ℝ) : EReal) := by
    rw [← coe_sum]
    refine Finset.sum_congr rfl fun k _ => ?_
    rw [← EReal.coe_sub, ← EReal.coe_mul]
  have h3 : ∑ k, x k * δ k = x q := by simp [hδ]
  have h4 : ∑ k, x k * (w k - δ k) = ∑ k, x k * w k - ∑ k, x k * δ k := by
    rw [← Finset.sum_sub_distrib]
    exact Finset.sum_congr rfl fun k _ => by ring
  rw [h1, one_mul, h2, coe_dot, ← EReal.coe_add, h4, h3]
  congr 1
  ring

end Cert.MaskedRow
-- ==== Proof.FusedIsReplaced.lean ====
/-
  On finite entries the fused expression is the replaced rows.

  Fix an entry (r, q). If flag r is clear, its number is 0, the one-term sum is 0, and the fused entry is x (r, q): the
  kept entry. If flag r is set, its number is 1; with row r of x and column q of W real numbers, the sum against W − δ
  splits into the row times the column minus x (r, q), which cancels the leading x (r, q): the fused entry is the row
  times the column. The second case is where finiteness of x and of W is used.
-/
import proofs.«168212_g66400194396169_cont_9to1_m_1193_3_alg».proof.Proof.Spec
import proofs.«168212_g66400194396169_cont_9to1_m_1193_3_alg».proof.Proof.MaskedRow

noncomputable section

open scoped BigOperators

namespace Cert.Spec

open Idealize.ShloMosaic Idealize.ShloMosaic.ValueIdx

/-- A set flag reads as the number 1. -/
theorem flagNum_of_set {b : (⟨1, ![100000]⟩ : Shape).Idx → BitVec 1} {r : Fin 100000} (h : b (ix1 r) = 1#1) :
    flagNum b r = 1 := by
  unfold flagNum
  rw [h]
  simp

/-- A clear flag reads as the number 0. -/
theorem flagNum_of_clear {b : (⟨1, ![100000]⟩ : Shape).Idx → BitVec 1} {r : Fin 100000} (h : b (ix1 r) = 0#1) :
    flagNum b r = 0 := by
  unfold flagNum
  rw [h]
  simp

/-- Entry by entry, on real-valued x and W, the fused expression is the replaced rows. -/
theorem fusedEntry_eq_replacedEntry (x : (⟨2, ![100000, 128]⟩ : Shape).Idx → EReal)
    (b : (⟨1, ![100000]⟩ : Shape).Idx → BitVec 1) (W : (⟨2, ![128, 128]⟩ : Shape).Idx → EReal)
    (hx : ∀ i, ∃ a : ℝ, x i = (a : EReal)) (hW : ∀ i, ∃ a : ℝ, W i = (a : EReal)) (r : Fin 100000) (q : Fin 128) :
    fusedEntry x b W r q = replacedEntry x b W r q := by
  choose xr hxr using hx
  choose wr hwr using hW
  unfold fusedEntry replacedEntry
  rcases BitVec.eq_zero_or_eq_one (b (ix1 r)) with h | h
  · rw [h, select_zero]
    exact Cert.MaskedRow.entry_kept _ _ _ _ (flagNum_of_clear h)
  · rw [h, select_one]
    simp only [hxr, hwr]
    exact Cert.MaskedRow.entry_replaced (fun k => xr (ix2 r k)) (fun k => wr (ix2 k q)) (fun k => identEntry k q) q
      (fun _ => rfl) _ _ (flagNum_of_set h) rfl

/-- So the two arrays are equal. -/
theorem fusedRows_eq_replacedRows (x : (⟨2, ![100000, 128]⟩ : Shape).Idx → EReal)
    (b : (⟨1, ![100000]⟩ : Shape).Idx → BitVec 1) (W : (⟨2, ![128, 128]⟩ : Shape).Idx → EReal)
    (hx : ∀ i, ∃ a : ℝ, x i = (a : EReal)) (hW : ∀ i, ∃ a : ℝ, W i = (a : EReal)) :
    fusedRows x b W = replacedRows x b W :=
  funext fun i => fusedEntry_eq_replacedEntry x b W hx hW (i 0) (i 1)

end Cert.Spec

end
-- ==== Proof.Finite.lean ====
/-
  The precondition says every entry of x and of W is a real number.

  It is printed as: the conjunction, over all entries of x, of |entry| < +∞, and the same over all entries of W, the two
  joined by "and", the result one bit that the claim assumes set. A conjunction that is set has every conjunct set, so
  |entry| < +∞ holds at each entry, where |a| is max a (−a). On the extended reals that excludes the two infinities
  (|±∞| = +∞, which is not below +∞), and what is left is a real number.
-/
import proofs.«168212_g66400194396169_cont_9to1_m_1193_3_alg».proof.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs

/-- The bit pattern of +∞ denotes the top element. -/
theorem ofBits_inf : Ideal.ofBits .f32 0x7F800000#32 = (⊤ : EReal) := by
  simp [Ideal.ofBits, Ideal.ieee]

/-- An extended real whose absolute value compares below +∞ is a real number. -/
theorem real_of_abs_lt_inf (a : EReal) (h : Ideal.cmp .olt (max a (-a)) (Ideal.ofBits .f32 0x7F800000#32) = 1#1) :
    ∃ r : ℝ, a = (r : EReal) := by
  rw [ofBits_inf] at h
  have hlt : max a (-a) < ⊤ := by
    by_contra hn
    simp [Ideal.cmp, hn] at h
  induction a using EReal.rec with
  | bot => simp at hlt
  | coe r => exact ⟨r, rfl⟩
  | top => simp at hlt

/-- The scalar shape has one index. -/
instance : Subsingleton S_.Idx := ⟨fun _ _ => funext fun d => d.elim0⟩

variable [Cert.Pre_finite_inputs.Facts]

/-- From the precondition: x and W hold real numbers only. (The flags are not mentioned by it.) -/
theorem reals_of_pre (a0 : FVec Ideal S100000x128 .f32) (a1 : IVec S100000 1) (a2 : FVec Ideal S128x128 .f32)
    (h : fn (F := Ideal) a0 a1 a2 = fun _ => 1#1) :
    (∀ i, ∃ r : ℝ, a0 i = (r : EReal)) ∧ (∀ i, ∃ r : ℝ, a2 i = (r : EReal)) := by
  have h0 := congrFun h ix0
  dsimp only [fn] at h0
  obtain ⟨h1, h2⟩ := IntOp.andi_eq_one.1 h0
  refine ⟨fun i => ?_, fun i => ?_⟩
  · exact real_of_abs_lt_inf (a0 i) (Host.reduce_andi_all _ _ _ _ ix0 h1 i)
  · exact real_of_abs_lt_inf (a2 i) (Host.reduce_andi_all _ _ _ _ ix0 h2 i)

end Cert.Finite

end
-- ==== Proof.lean ====
/-
  A layer that replaces flagged rows by their product with a matrix, computed in one fused pass, against the plain
  "product, then select" form.

  The arguments are x (100000 rows of 128 numbers), a flag per row, and a 128 × 128 matrix W; numbers are extended
  reals and every operation is exact. The plain form computes x · W and then, row by row, takes the product's row where
  the flag is set and x's row where it is not. The fused form never selects: with the flags read as the numbers 0 and 1
  and spread along their rows (a column of flags times a row of ones), it computes

      x + flags ∘ (x · (W − I)),

  50 blocks of 2000 rows at a time. On a row whose flag is 0 the second summand is 0 · (…) = 0 and the row is x's. On a
  row whose flag is 1 it is x · W − x, and x + (x · W − x) = x · W; splitting x · (W − I) into x · W − x · I and cancelling
  the two copies of x are laws of the real numbers that fail at the infinities, so this case uses the hypothesis that x
  and W hold finite numbers (the flags are bits and need no hypothesis).

  The pieces: the fused form's stored value at an entry (Payload); the arrays computed before the blocks are walked — the
  flags as numbers, the ones, W − I (HostGlue); the result array as one function of the arguments, block by block
  (Blocks); the plain form's result read operation by operation (RefRead); the precondition read as "every entry is
  real" (Finite); and the law joining the two forms on real entries (MaskedRow, FusedIsReplaced, over LibCoeSum).
  Termination, absence of faults and the unchanged arguments of all three programs are the generated frames, the plain
  form's from its generated run. The idealized kernel is the kernel's own text read over the extended reals, so nothing
  is owed for that step.
-/
import proofs.«168212_g66400194396169_cont_9to1_m_1193_3_alg».proof.Defs
import proofs.«168212_g66400194396169_cont_9to1_m_1193_3_alg».proof.Proof.Gen.Kernel
import proofs.«168212_g66400194396169_cont_9to1_m_1193_3_alg».proof.Proof.Gen.Kernel.Skeleton
import proofs.«168212_g66400194396169_cont_9to1_m_1193_3_alg».proof.Proof.Gen.Kernel.Launch
import proofs.«168212_g66400194396169_cont_9to1_m_1193_3_alg».proof.Proof.Gen.Kernel.Points
import proofs.«168212_g66400194396169_cont_9to1_m_1193_3_alg».proof.Proof.Gen.Kernel.Frame
import proofs.«168212_g66400194396169_cont_9to1_m_1193_3_alg».proof.Proof.Gen.KernelIdeal
import proofs.«168212_g66400194396169_cont_9to1_m_1193_3_alg».proof.Proof.Gen.KernelIdeal.Skeleton
import proofs.«168212_g66400194396169_cont_9to1_m_1193_3_alg».proof.Proof.Gen.KernelIdeal.Launch
import proofs.«168212_g66400194396169_cont_9to1_m_1193_3_alg».proof.Proof.Gen.KernelIdeal.Points
import proofs.«168212_g66400194396169_cont_9to1_m_1193_3_alg».proof.Proof.Gen.KernelIdeal.Frame
import proofs.«168212_g66400194396169_cont_9to1_m_1193_3_alg».proof.Proof.Gen.ReferenceIdeal
import proofs.«168212_g66400194396169_cont_9to1_m_1193_3_alg».proof.Proof.Gen.Pre_finite_inputs
import proofs.«168212_g66400194396169_cont_9to1_m_1193_3_alg».proof.Proof.Gen.KernelIdeal.Value
import proofs.«168212_g66400194396169_cont_9to1_m_1193_3_alg».proof.Proof.Gen.ReferenceIdeal.Run
import proofs.«168212_g66400194396169_cont_9to1_m_1193_3_alg».proof.Proof.Gen.ReferenceIdeal.Read
import proofs.«168212_g66400194396169_cont_9to1_m_1193_3_alg».proof.Proof.Blocks
import proofs.«168212_g66400194396169_cont_9to1_m_1193_3_alg».proof.Proof.RefRead
import proofs.«168212_g66400194396169_cont_9to1_m_1193_3_alg».proof.Proof.FusedIsReplaced
import proofs.«168212_g66400194396169_cont_9to1_m_1193_3_alg».proof.Proof.Finite
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- The same program read over the extended reals does too. -/
theorem frame_kernelIdeal : Cert.frame_KernelIdeal := fun m ρ _ => Cert.KernelIdeal.Gen.frame m ρ

/-- The plain form does too: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From memories that agree on the three arguments, both programs end with the result array at the replaced rows of
    those arguments: the fused form because on finite x and W its expression is the replaced rows, the plain form because
    the replaced rows are what its four operations compute. -/
theorem algebraic : Cert.algebraic_KernelIdeal_ReferenceIdeal := by
  intro m ρ m' ρ' hpre hagree
  refine ⟨fun c => Cert.Spec.replacedRows
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Blocks.run m ρ)
    obtain ⟨hx, hW⟩ := Cert.Finite.reals_of_pre _ _ _ (hpre c)
    exact Cert.Spec.fusedRows_eq_replacedRows _ _ _ hx hW
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v2_eq, Cert.RefRead.reference_is_replacedRows,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
